-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32x512 : Shape := ⟨2, ![32, 512]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S16 .f32) (main_arg5 : FVec F S1x16 .f32) (main_arg6 : FVec F S1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S1x16 .f32 := Host.absf main_arg5
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S32768x512 .f32) (main_arg1 : FVec F S32x512 .f32) (main_arg2 : FVec F S32 .f32) (main_arg3 : FVec F S16x32 .f32) (main_arg4 : FVec F S16 .f32) (main_arg5 : FVec F S1x16 .f32) (main_arg6 : FVec F S1 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S16x32 .f32 := Host.absf main_arg3
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg4 main_arg5 main_arg6 main_v13 main_v16
-- ==== Kernel.lean ====
abbrev S32768x512 : Shape := ⟨2, ![32768, 512]⟩
abbrev S32x512 : Shape := ⟨2, ![32, 512]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S512x32 : Shape := ⟨2, ![512, 32]⟩
abbrev S32x16 : Shape := ⟨2, ![32, 16]⟩
abbrev S16x1 : Shape := ⟨2, ![16, 1]⟩
abbrev S1x32 : Shape := ⟨2, ![1, 32]⟩
abbrev S1x1 : Shape := ⟨2, ![1, 1]⟩
abbrev S32768x1 : Shape := ⟨2, ![32768, 1]⟩
abbrev S8192x512 : Shape := ⟨2, ![8192, 512]⟩
abbrev S8192x1 : Shape := ⟨2, ![8192, 1]⟩
abbrev S8192x32 : Shape := ⟨2, ![8192, 32]⟩
abbrev S8192x16 : Shape := ⟨2, ![8192, 16]⟩

abbrev nBuf : Space → Nat
  | .hbm => 15
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S32x512, .f32⟩
  | .hbm, ⟨2, _⟩ => ⟨S32, .f32⟩
  | .hbm, ⟨3, _⟩ => ⟨S16x32, .f32⟩
  | .hbm, ⟨4, _⟩ => ⟨S16, .f32⟩
  | .hbm, ⟨5, _⟩ => ⟨S1x16, .f32⟩
  | .hbm, ⟨6, _⟩ => ⟨S1, .f32⟩
  | .hbm, ⟨7, _⟩ => ⟨S512x32, .f32⟩
  | .hbm, ⟨8, _⟩ => ⟨S512x32, .bf16⟩
  | .hbm, ⟨9, _⟩ => ⟨S32x16, .f32⟩
  | .hbm, ⟨10, _⟩ => ⟨S16x1, .f32⟩
  | .hbm, ⟨11, _⟩ => ⟨S1x32, .f32⟩
  | .hbm, ⟨12, _⟩ => ⟨S1x16, .f32⟩
  | .hbm, ⟨13, _⟩ => ⟨S1x1, .f32⟩
  | .hbm, ⟨14, _⟩ => ⟨S32768x1, .f32⟩
  | .local _ .vmem, ⟨0, _⟩ => ⟨S8192x512, .f32⟩
  | .local _ .vmem, ⟨1, _⟩ => ⟨S8192x512, .f32⟩
  | .local _ .vmem, ⟨2, _⟩ => ⟨S512x32, .bf16⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S16x1, .f32⟩
  | .local _ .vmem, ⟨7, _⟩ => ⟨S1x1, .f32⟩
  | .local _ .vmem, ⟨8, _⟩ => ⟨S8192x1, .f32⟩
  | .local _ .vmem, ⟨9, _⟩ => ⟨S8192x1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S32x512_S512x32_1_0 : S32x512.Transposes [1, 0] S512x32
  bitsLt_bf16_f32 : FTy.bits .bf16 < FTy.bits .f32
  transposes_S16x32_S32x16_1_0 : S16x32.Transposes [1, 0] S32x16
  transposes_S1x16_S16x1_1_0 : S1x16.Transposes [1, 0] S16x1
  shapeCasts_S32_S1x32 : S32.ShapeCasts S1x32
  shapeCasts_S16_S1x16 : S16.ShapeCasts S1x16
  shapeCasts_S1_S1x1 : S1.ShapeCasts S1x1
  inb_S8192x512_S8192x512_0_0 : ∀ a, (![0, 0] : Fin 2 → Nat) a + S8192x512.size a ≤ S8192x512.size a
  h_S8192x512 : 0 < S8192x512.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  dot_S8192x512_S512x32_S8192x32_1_0_0_1_n_n_wf : DotDims.WF S8192x512 S512x32 S8192x32 [1] [0] [0] [1] [] []
  dot_S8192x32_S32x16_S8192x16_1_0_0_1_n_n_wf : DotDims.WF S8192x32 S32x16 S8192x16 [1] [0] [0] [1] [] []
  dot_S8192x16_S16x1_S8192x1_1_0_0_1_n_n_wf : DotDims.WF S8192x16 S16x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S32768x512.size a
  hwx0_0 : ∀ i : grid0.Coords, EltTy.bits .f32 = 32 ∨ (Rect.block (s := S32768x512) S8192x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .bf16 = 32 ∨ (Rect.block (s := S512x32) S512x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x1.size a ≤ S32768x1.size a
  hwx0_7 : ∀ i : grid0.Coords, EltTy.bits .f32 = 32 ∨ (Rect.block (s := S32768x1) S8192x1.size (cc0_transform_7 i) (hinb0_7 i)).WholeWords (EltTy.packing .f32)

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x16_S16x1_S8192x1_1_0_0_1_n_n : DotDims S8192x16 S16x1 S8192x1 where
  lhsContracting := [1]
  rhsContracting := [0]
  lhsNonContracting := [0]
  rhsNonContracting := [1]
  lhsBatch := []
  rhsBatch := []
  wf := dot_S8192x16_S16x1_S8192x1_1_0_0_1_n_n_wf

abbrev win0_0 : Pipeline.Window sig grid0 :=
  Pipeline.Window.ofSpec (Memref.whole main_arg0) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S8192x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x512 : Shape := ⟨2, ![32768, 512]⟩
abbrev S32x512 : Shape := ⟨2, ![32, 512]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S512x32 : Shape := ⟨2, ![512, 32]⟩
abbrev S32x16 : Shape := ⟨2, ![32, 16]⟩
abbrev S16x1 : Shape := ⟨2, ![16, 1]⟩
abbrev S1x32 : Shape := ⟨2, ![1, 32]⟩
abbrev S1x1 : Shape := ⟨2, ![1, 1]⟩
abbrev S32768x1 : Shape := ⟨2, ![32768, 1]⟩
abbrev S2048x512 : Shape := ⟨2, ![2048, 512]⟩
abbrev S2048x1 : Shape := ⟨2, ![2048, 1]⟩
abbrev S2048x32 : Shape := ⟨2, ![2048, 32]⟩
abbrev S2048x16 : Shape := ⟨2, ![2048, 16]⟩

abbrev nBuf : Space → Nat
  | .hbm => 14
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S32x512, .f32⟩
  | .hbm, ⟨2, _⟩ => ⟨S32, .f32⟩
  | .hbm, ⟨3, _⟩ => ⟨S16x32, .f32⟩
  | .hbm, ⟨4, _⟩ => ⟨S16, .f32⟩
  | .hbm, ⟨5, _⟩ => ⟨S1x16, .f32⟩
  | .hbm, ⟨6, _⟩ => ⟨S1, .f32⟩
  | .hbm, ⟨7, _⟩ => ⟨S512x32, .f32⟩
  | .hbm, ⟨8, _⟩ => ⟨S32x16, .f32⟩
  | .hbm, ⟨9, _⟩ => ⟨S16x1, .f32⟩
  | .hbm, ⟨10, _⟩ => ⟨S1x32, .f32⟩
  | .hbm, ⟨11, _⟩ => ⟨S1x16, .f32⟩
  | .hbm, ⟨12, _⟩ => ⟨S1x1, .f32⟩
  | .hbm, ⟨13, _⟩ => ⟨S32768x1, .f32⟩
  | .local _ .vmem, ⟨0, _⟩ => ⟨S2048x512, .f32⟩
  | .local _ .vmem, ⟨1, _⟩ => ⟨S2048x512, .f32⟩
  | .local _ .vmem, ⟨2, _⟩ => ⟨S512x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S16x1, .f32⟩
  | .local _ .vmem, ⟨7, _⟩ => ⟨S1x1, .f32⟩
  | .local _ .vmem, ⟨8, _⟩ => ⟨S2048x1, .f32⟩
  | .local _ .vmem, ⟨9, _⟩ => ⟨S2048x1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S32x512_S512x32_1_0 : S32x512.Transposes [1, 0] S512x32
  transposes_S16x32_S32x16_1_0 : S16x32.Transposes [1, 0] S32x16
  transposes_S1x16_S16x1_1_0 : S1x16.Transposes [1, 0] S16x1
  shapeCasts_S32_S1x32 : S32.ShapeCasts S1x32
  shapeCasts_S16_S1x16 : S16.ShapeCasts S1x16
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x512_S512x32_S2048x32_1_0_0_1_n_n_wf : DotDims.WF S2048x512 S512x32 S2048x32 [1] [0] [0] [1] [] []
  dot_S2048x32_S32x16_S2048x16_1_0_0_1_n_n_wf : DotDims.WF S2048x32 S32x16 S2048x16 [1] [0] [0] [1] [] []
  dot_S2048x16_S16x1_S2048x1_1_0_0_1_n_n_wf : DotDims.WF S2048x16 S16x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S32768x1.size a
  hwx0_7 : ∀ i : grid0.Coords, EltTy.bits .f32 = 32 ∨ (Rect.block (s := S32768x1) S2048x1.size (cc0_transform_7 i) (hinb0_7 i)).WholeWords (EltTy.packing .f32)

variable [Facts₀]

def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibPlainMatmul.lean ====
/-
  A plain matrix product read at one entry.

  For the dimension numbers of an ordinary product of an M × K matrix with a K × N matrix (the left operand contracted
  on its second axis, the right on its first, no batch axis), the entry (p, q) of the product accumulated into zero is,
  on the extended reals, the sum over k of lhs (p, k) · rhs (k, q). The contraction index of such a product has one
  axis of extent K; the sum over it is carried to the sum over `Fin K` along the bijection that reads that one
  coordinate, and the two operand indices at a contraction position k are (p, k) and (k, q).
-/
import Idealize.ShloMosaic.Lib.ValueIdx
import Idealize.ShloMosaic.PureOps.Ideal.Laws

noncomputable section

open scoped BigOperators

namespace Cert.Lib.PlainMatmul

open Idealize.ShloMosaic Idealize.ShloMosaic.ValueIdx

variable {M K N : Nat}

/-- The contraction index of a plain product, from its one coordinate. -/
abbrev pos (M K N : Nat) : Fin K ≃ (DotDims.plain M K N).contr.Idx :=
  (contrEquiv1 (DotDims.plain M K N) K rfl rfl).symm

/-- At contraction position `k` the left operand of entry (p, q) is read at (p, k). -/
theorem lhsIdx_plain (p : Fin M) (q : Fin N) (k : Fin K) :
    (DotDims.plain M K N).lhsIdx (ix2 p q) (pos M K N k) = ix2 p k := by
  funext a
  apply Fin.ext
  match a with
  | ⟨0, _⟩ => rfl
  | ⟨1, _⟩ =>
    show ((DotDims.plain M K N).lhsIdx (ix2 p q) (pos M K N k) (1 : Fin 2)).val = k.val
    rw [DotDims.lhsIdx_val_of_single (DotDims.plain M K N) (cl := (1 : Fin 2)) rfl]
    exact contrEquiv1_symm_val (DotDims.plain M K N) K rfl rfl k

/-- At contraction position `k` the right operand of entry (p, q) is read at (k, q). -/
theorem rhsIdx_plain (p : Fin M) (q : Fin N) (k : Fin K) :
    (DotDims.plain M K N).rhsIdx (ix2 p q) (pos M K N k) = ix2 k q := by
  funext a
  apply Fin.ext
  match a with
  | ⟨0, _⟩ =>
    show ((DotDims.plain M K N).rhsIdx (ix2 p q) (pos M K N k) (0 : Fin 2)).val = k.val
    rw [DotDims.rhsIdx_val_of_single (DotDims.plain M K N) (cr := (0 : Fin 2)) rfl]
    exact contrEquiv1_symm_val (DotDims.plain M K N) K rfl rfl k
  | ⟨1, _⟩ => rfl

/-- Entry (p, q) of a plain product accumulated into the zero array: the sum over `k` of lhs (p, k) · rhs (k, q).
    Stated for any record of dimension numbers that IS the plain one (`hD`), so that it applies to a program's own
    record of a product by `rfl`. -/
theorem matmul_zero_apply {φ₁ φ₂ : FTy} (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    matmul D prec lhs rhs (constant (F := Ideal) ⟨2, ![M, N]⟩ .f32 0x00000000#32) (ix2 p q)
      = ∑ k : Fin K, lhs (ix2 p k) * rhs (ix2 k q) := by
  subst hD
  show FloatOps.matmul (DotDims.plain M K N) prec lhs rhs (constant (F := Ideal) ⟨2, ![M, N]⟩ .f32 0x00000000#32) (ix2 p q) = _
  rw [Ideal.matmul_constant_zero_apply, ← Equiv.sum_comp (pos M K N)]
  exact Finset.sum_congr rfl fun k _ => by rw [lhsIdx_plain, rhsIdx_plain]

end Cert.Lib.PlainMatmul

end
-- ==== Proof.LibDenseLayer.lean ====
/-
  A dense layer read at one entry.

  A layer `x · W + b` as a vector body writes it: the product of an M × K block with a K × N weight block
  (re-cast to its own shape) accumulated into zero, plus a 1 × N bias row (re-cast to its own shape) repeated over the
  M rows. At entry (p, j), on the extended reals, this is Σ_k x (p, k) · W (k, j) + b (0, j): the product by the plain
  matrix product's sum, the re-casts the identity, the repeated row read at its one row.
  The rectifier that follows such a layer, the maximum with the zero word repeated over the block, is the maximum
  with 0 at each entry.
-/
import Idealize.ShloMosaic.Lib.ValueLayout
import proofs.«136182_g2000206876986119_pallasbulk_25_21_alg».proof.Proof.LibPlainMatmul

noncomputable section

open scoped BigOperators

namespace Cert.Lib.DenseLayer

open Idealize.ShloMosaic Idealize.ShloMosaic.ValueIdx

variable {M K N : Nat}

/-- Entry (p, j) of `x · W + b`, the bias a single row repeated over the rows of the block. -/
theorem dense_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (W : FVec Ideal ⟨2, ![K, N]⟩ φ₂)
    (hW : (⟨2, ![K, N]⟩ : Shape).ShapeCasts ⟨2, ![K, N]⟩) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (p : Fin M) (j : Fin N) :
    addf (matmul D prec x (shapeCast ⟨2, ![K, N]⟩ W hW) (constant (F := Ideal) ⟨2, ![M, N]⟩ .f32 0x00000000#32))
        (broadcastTo ⟨2, ![M, N]⟩ (shapeCast ⟨2, ![1, N]⟩ b hb) hbc) (ix2 p j)
      = (∑ k : Fin K, x (ix2 p k) * W (ix2 k j)) + b (ix2 (0 : Fin 1) j) := by
  rw [addf_apply, Cert.Lib.PlainMatmul.matmul_zero_apply D hD, broadcastTo_1b_ab_apply, shapeCast_self, shapeCast_self]

/-- The maximum with the zero word repeated over a block, at an entry: the maximum with 0. -/
theorem relu_apply {s : Shape} (a : FVec Ideal s .f32) (i : s.Idx) :
    maximumf a (broadcast s (Scalar.ofBits (F := Ideal) .f32 0x00000000#32)) i = max (a i) 0 := by
  show max (a i) (Ideal.ofBits .f32 0x00000000#32) = max (a i) 0
  rw [Ideal.ofBits_zero_f32]

end Cert.Lib.DenseLayer

end
-- ==== Proof.MlpSpec.lean ====
/-
  The function both programs compute: a three-layer perceptron applied to each row of `x`.

  For a row r of x (512 features), with weights w1 : 32 × 512, w2 : 16 × 32, w3 : 1 × 16 stored (out, in) and biases
  b1, b2, b3,
      h1 j = max (Σ_i x r i · w1 j i + b1 j) 0          (j < 32)
      h2 l = max (Σ_j h1 j · w2 l j + b2 l) 0           (l < 16)
      out r = logistic (Σ_l h2 l · w3 0 l + b3 0),
  every operation the exact one on the extended reals. Each output entry depends on one row of x only, so how the
  rows are cut into blocks does not matter: that is the whole content of the equivalence proved here.
  `mlpRow` is the row function over weights already laid out (in, out), as both bodies receive them; `G` is the
  result array as one function of the seven argument arrays.
-/
import Idealize.ShloMosaic.Lib.ValueIdx

noncomputable section

open scoped BigOperators

namespace Cert.Mlp

open Idealize.ShloMosaic Idealize.ShloMosaic.ValueIdx

/-- One row through the three layers: `x` the row's 512 features, `u1 i j`, `u2 j l`, `u3 l` the weights laid
    out (in, out), `c1`, `c2`, `c3` the biases. -/
def mlpRow (x : Fin 512 → EReal) (u1 : Fin 512 → Fin 32 → EReal) (c1 : Fin 32 → EReal)
    (u2 : Fin 32 → Fin 16 → EReal) (c2 : Fin 16 → EReal) (u3 : Fin 16 → EReal) (c3 : EReal) : EReal :=
  Ideal.logistic
    ((∑ l : Fin 16, max ((∑ j : Fin 32, max ((∑ i : Fin 512, x i * u1 i j) + c1 j) 0 * u2 j l) + c2 l) 0 * u3 l) + c3)

/-- The row function depends on its seven arguments only through their values. -/
theorem mlpRow_congr {x x' : Fin 512 → EReal} {u1 u1' : Fin 512 → Fin 32 → EReal} {c1 c1' : Fin 32 → EReal}
    {u2 u2' : Fin 32 → Fin 16 → EReal} {c2 c2' : Fin 16 → EReal} {u3 u3' : Fin 16 → EReal} {c3 c3' : EReal}
    (hx : ∀ i, x i = x' i) (h1 : ∀ i j, u1 i j = u1' i j) (hc1 : ∀ j, c1 j = c1' j) (h2 : ∀ j l, u2 j l = u2' j l)
    (hc2 : ∀ l, c2 l = c2' l) (h3 : ∀ l, u3 l = u3' l) (hc3 : c3 = c3') :
    mlpRow x u1 c1 u2 c2 u3 c3 = mlpRow x' u1' c1' u2' c2' u3' c3' := by
  obtain rfl : x = x' := funext hx
  obtain rfl : u1 = u1' := funext fun i => funext (h1 i)
  obtain rfl : c1 = c1' := funext hc1
  obtain rfl : u2 = u2' := funext fun j => funext (h2 j)
  obtain rfl : c2 = c2' := funext hc2
  obtain rfl : u3 = u3' := funext h3
  subst hc3
  rfl

/-- The result array, entry (r, 0), from the argument arrays: row r of `x` through the layers, the weights read
    transposed ((out, in) as stored). -/
def G (x : (⟨2, ![32768, 512]⟩ : Shape).Idx → EReal) (w1 : (⟨2, ![32, 512]⟩ : Shape).Idx → EReal)
    (b1 : (⟨1, ![32]⟩ : Shape).Idx → EReal) (w2 : (⟨2, ![16, 32]⟩ : Shape).Idx → EReal)
    (b2 : (⟨1, ![16]⟩ : Shape).Idx → EReal) (w3 : (⟨2, ![1, 16]⟩ : Shape).Idx → EReal)
    (b3 : (⟨1, ![1]⟩ : Shape).Idx → EReal) : (⟨2, ![32768, 1]⟩ : Shape).Idx → EReal := fun i =>
  mlpRow (fun k => x (ix2 (i 0) k)) (fun k j => w1 (ix2 j k)) (fun j => b1 (ix1 j))
    (fun j l => w2 (ix2 l j)) (fun l => b2 (ix1 l)) (fun l => w3 (ix2 (0 : Fin 1) l)) (b3 (ix1 (0 : Fin 1)))

end Cert.Mlp

end
-- ==== Proof.KernelPayload.lean ====
/-
  The kernel body's stored value at one entry.

  The body computes, from its seven loaded blocks (8192 rows of x, the three weight blocks laid out (in, out), the
  three one-row bias blocks), logistic (relu (relu (x·W1 + b1)·W2 + b2)·W3 + b3). Entry (p, q) of that value is the
  row function `mlpRow` of row p of the x block: each layer read at an entry is a sum over the contracted axis plus
  the bias row's entry, the rectifier the maximum with 0, and the narrowing of x to a shorter float format changes
  nothing on the extended reals.
-/
import proofs.«136182_g2000206876986119_pallasbulk_25_21_alg».proof.Proof.Gen.KernelIdeal.Skeleton
import proofs.«136182_g2000206876986119_pallasbulk_25_21_alg».proof.Proof.LibDenseLayer
import proofs.«136182_g2000206876986119_pallasbulk_25_21_alg».proof.Proof.MlpSpec

noncomputable section

open scoped BigOperators

namespace Cert.KernelIdeal.Hand

open Cert.KernelIdeal Cert.KernelIdeal.Gen Idealize.ShloMosaic Idealize.ShloMosaic.ValueIdx
open Cert.Mlp Cert.Lib.DenseLayer

/-- Entry (p, q) of the stored value is the row function of row p of the x block and of the weight and bias blocks. -/
theorem pay_apply (x0 : Vec Ideal S8192x512 .f32) (x1 : Vec Ideal S512x32 .bf16) (x2 : Vec Ideal S1x32 .f32)
    (x3 : Vec Ideal S32x16 .f32) (x4 : Vec Ideal S1x16 .f32) (x5 : Vec Ideal S16x1 .f32) (x6 : Vec Ideal S1x1 .f32)
    (p : Fin 8192) (q : Fin 1) :
    k0_pay1 (F := Ideal) x0 x1 x2 x3 x4 x5 x6 (ix2 p q)
      = mlpRow (fun i => x0 (ix2 p i)) (fun i j => x1 (ix2 i j)) (fun j => x2 (ix2 (0 : Fin 1) j))
          (fun j l => x3 (ix2 j l)) (fun l => x4 (ix2 (0 : Fin 1) l)) (fun l => x5 (ix2 l q)) (x6 (ix2 (0 : Fin 1) q)) := by
  unfold k0_pay1 mlpRow
  simp only [logistic, Ideal.logistic_def,
    dense_apply dot_S8192x16_S16x1_S8192x1_1_0_0_1_n_n rfl,
    dense_apply dot_S8192x32_S32x16_S8192x16_1_0_0_1_n_n rfl,
    dense_apply dot_S8192x512_S512x32_S8192x32_1_0_0_1_n_n rfl,
    relu_apply, truncf_apply]

end Cert.KernelIdeal.Hand

end
-- ==== Proof.KernelValue.lean ====
/-
  The kernel's result array as one function of its arguments.

  The call cuts x into 4 blocks of 8192 rows, one per grid point, and hands every point the whole weight and
  bias arrays — the weights transposed to (in, out) and the biases reshaped to one-row matrices by the operations that
  precede the call (the first layer's weights also narrowed to a shorter float format, which changes nothing on the extended reals). Point t writes back the body's value of block t, and row p of that value is the
  row function of row p of the block, that is of row 8192·t + p of x. So what point t writes is block t of the
  row-wise function `G`; the 4 row blocks tile the result (row r lies in block r / 8192), hence after the
  run the result array is `G` of the argument arrays, which the run leaves unchanged.
-/
import proofs.«136182_g2000206876986119_pallasbulk_25_21_alg».proof.Proof.Gen.KernelIdeal.Value
import proofs.«136182_g2000206876986119_pallasbulk_25_21_alg».proof.Proof.KernelPayload
import Idealize.ShloMosaic.Lib.ValueLayout
import Idealize.ShloMosaic.Lib.StableHlo.Run
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open Cert.Mlp

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds: the weights transposed, the biases as one-row matrices -/

/-- The first layer's weights as the region finds them, (in, out): entry (i, j) is w1 (j, i). -/
theorem W1_apply (c : Dev nD) (i : Fin 512) (j : Fin 32) :
    (V m c main_v1 : Vec Ideal S512x32 .bf16) (ix2 i j) = ((m ((c : Thread nD τ).loc main_arg1)) : Vec Ideal S32x512 .f32) (ix2 j i) := by
  have e : @Eq (Vec Ideal S512x32 .bf16) (V m c main_v1)
      (truncf (F := Ideal) .bf16 (transpose S512x32 [1, 0] ((m ((c : Thread nD τ).loc main_arg1)) : Vec Ideal S32x512 .f32) transposes_S32x512_S512x32_1_0) bitsLt_bf16_f32) := by
    dsimp only [Gen.V, Gen.hostOps0]; after_results <;> rfl
  rw [e, truncf_apply, transpose_ix2_apply]

/-- The second layer's weights, (in, out): entry (j, l) is w2 (l, j). -/
theorem W2_apply (c : Dev nD) (j : Fin 32) (l : Fin 16) :
    (V m c main_v2 : Vec Ideal S32x16 .f32) (ix2 j l) = ((m ((c : Thread nD τ).loc main_arg3)) : Vec Ideal S16x32 .f32) (ix2 l j) := by
  have e : @Eq (Vec Ideal S32x16 .f32) (V m c main_v2)
      (transpose (α := Ideal .f32) S32x16 [1, 0] ((m ((c : Thread nD τ).loc main_arg3)) : Vec Ideal S16x32 .f32) transposes_S16x32_S32x16_1_0) := by
    dsimp only [Gen.V, Gen.hostOps0]; after_results <;> rfl
  rw [e, transpose_ix2_apply]

/-- The third layer's weights, (in, out): entry (l, u) is w3 (u, l). -/
theorem W3_apply (c : Dev nD) (l : Fin 16) (u : Fin 1) :
    (V m c main_v3 : Vec Ideal S16x1 .f32) (ix2 l u) = ((m ((c : Thread nD τ).loc main_arg5)) : Vec Ideal S1x16 .f32) (ix2 u l) := by
  have e : @Eq (Vec Ideal S16x1 .f32) (V m c main_v3)
      (transpose (α := Ideal .f32) S16x1 [1, 0] ((m ((c : Thread nD τ).loc main_arg5)) : Vec Ideal S1x16 .f32) transposes_S1x16_S16x1_1_0) := by
    dsimp only [Gen.V, Gen.hostOps0]; after_results <;> rfl
  rw [e, transpose_ix2_apply]

/-- The first bias as a one-row matrix: entry (u, j) is b1 j. -/
theorem B1_apply (c : Dev nD) (u : Fin 1) (j : Fin 32) :
    (V m c main_v4 : Vec Ideal S1x32 .f32) (ix2 u j) = ((m ((c : Thread nD τ).loc main_arg2)) : Vec Ideal S32 .f32) (ix1 j) := by
  have e : @Eq (Vec Ideal S1x32 .f32) (V m c main_v4)
      (shapeCast S1x32 ((m ((c : Thread nD τ).loc main_arg2)) : Vec Ideal S32 .f32) shapeCasts_S32_S1x32) := by
    dsimp only [Gen.V, Gen.hostOps0]; after_results <;> rfl
  rw [e, shapeCast_a_1a_apply]

/-- The second bias as a one-row matrix: entry (u, l) is b2 l. -/
theorem B2_apply (c : Dev nD) (u : Fin 1) (l : Fin 16) :
    (V m c main_v5 : Vec Ideal S1x16 .f32) (ix2 u l) = ((m ((c : Thread nD τ).loc main_arg4)) : Vec Ideal S16 .f32) (ix1 l) := by
  have e : @Eq (Vec Ideal S1x16 .f32) (V m c main_v5)
      (shapeCast S1x16 ((m ((c : Thread nD τ).loc main_arg4)) : Vec Ideal S16 .f32) shapeCasts_S16_S1x16) := by
    dsimp only [Gen.V, Gen.hostOps0]; after_results <;> rfl
  rw [e, shapeCast_a_1a_apply]

/-- The third bias as a one-entry matrix: entry (u, u') is b3 u'. -/
theorem B3_apply (c : Dev nD) (u u' : Fin 1) :
    (V m c main_v6 : Vec Ideal S1x1 .f32) (ix2 u u') = ((m ((c : Thread nD τ).loc main_arg6)) : Vec Ideal S1 .f32) (ix1 u') := by
  have e : @Eq (Vec Ideal S1x1 .f32) (V m c main_v6)
      (shapeCast S1x1 ((m ((c : Thread nD τ).loc main_arg6)) : Vec Ideal S1 .f32) shapeCasts_S1_S1x1) := by
    dsimp only [Gen.V, Gen.hostOps0]; after_results <;> rfl
  rw [e, shapeCast_a_1a_apply]

/-! ## The blocks at a grid point -/

/-- The index maps over the grid: point t takes row block t of x and writes row block t of the result; every other
    window is its whole array at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of the x block at point t is row 8192·t + p of x. -/
theorem xblk_apply (c : Dev nD) (t : Fin cfg0.N) (y : S8192x512.Idx) (k : S32768x512.Idx)
    (hk0 : (k 0).val = 8192 * t.val + (y 0).val) (hk1 : (k 1).val = (y 1).val) :
    (iblk m c 0 t : Vec Ideal S8192x512 .f32) y = ((m ((c : Thread nD τ).loc main_arg0)) : Vec Ideal S32768x512 .f32) k := by
  obtain ⟨e0, e1, -⟩ := idx_facts t
  unfold iblk
  rw [View.read_apply]
  show V m c main_arg0 (((cfg0.win 0).blk t).view.emb y) = _
  rw [V_main_arg0]
  refine congrArg _ (funext fun a => Fin.ext ?_)
  match a with
  | ⟨0, _⟩ => show win0_0.index t (0 : Fin 2) * 8192 + 1 * (y 0).val = (k 0).val; rw [e0, hk0]; omega
  | ⟨1, _⟩ => show win0_0.index t (1 : Fin 2) * 512 + 1 * (y 1).val = (k 1).val; rw [e1, hk1]; omega

/-- Row p of the result block at point t is row 8192·t + p of the result. -/
theorem oblk_row (t : Fin cfg0.N) (p : Fin 8192) (q : Fin 1) :
    ((((cfg0.win 7).blk t).view.emb (ix2 p q) : S32768x1.Idx) 0).val = 8192 * t.val + p.val := by
  obtain ⟨-, -, -, -, -, -, -, -, -, -, -, -, -, -, e0, -⟩ := idx_facts t
  show win0_7.index t (0 : Fin 2) * 8192 + 1 * p.val = _
  rw [e0]; omega

/-! ## The weight and bias blocks: each is its whole array, at every point -/

/-- The first weight block, entry (i, j): w1 (j, i). -/
theorem w1blk_apply (c : Dev nD) (t : Fin cfg0.N) (i : Fin 512) (j : Fin 32) :
    (iblk m c 1 t : Vec Ideal S512x32 .bf16) (ix2 i j) = ((m ((c : Thread nD τ).loc main_arg1)) : Vec Ideal S32x512 .f32) (ix2 j i) := by
  obtain ⟨-, -, e0, e1, -⟩ := idx_facts t
  unfold iblk
  rw [View.read_apply]
  have he : (((cfg0.win 1).blk t).view.emb (ix2 i j) : S512x32.Idx) = ix2 i j := funext fun ax => Fin.ext (by
    match ax with
    | ⟨0, _⟩ => show win0_1.index t (0 : Fin 2) * 512 + 1 * i.val = i.val; rw [e0]; omega
    | ⟨1, _⟩ => show win0_1.index t (1 : Fin 2) * 32 + 1 * j.val = j.val; rw [e1]; omega)
  exact (congrArg _ he).trans (W1_apply m c i j)

/-- The first bias block, entry (u, j): b1 j. -/
theorem b1blk_apply (c : Dev nD) (t : Fin cfg0.N) (u : Fin 1) (j : Fin 32) :
    (iblk m c 2 t : Vec Ideal S1x32 .f32) (ix2 u j) = ((m ((c : Thread nD τ).loc main_arg2)) : Vec Ideal S32 .f32) (ix1 j) := by
  obtain ⟨-, -, -, -, e0, e1, -⟩ := idx_facts t
  unfold iblk
  rw [View.read_apply]
  have he : (((cfg0.win 2).blk t).view.emb (ix2 u j) : S1x32.Idx) = ix2 u j := funext fun ax => Fin.ext (by
    match ax with
    | ⟨0, _⟩ => show win0_2.index t (0 : Fin 2) * 1 + 1 * u.val = u.val; rw [e0]; omega
    | ⟨1, _⟩ => show win0_2.index t (1 : Fin 2) * 32 + 1 * j.val = j.val; rw [e1]; omega)
  exact (congrArg _ he).trans (B1_apply m c u j)

/-- The second weight block, entry (j, l): w2 (l, j). -/
theorem w2blk_apply (c : Dev nD) (t : Fin cfg0.N) (j : Fin 32) (l : Fin 16) :
    (iblk m c 3 t : Vec Ideal S32x16 .f32) (ix2 j l) = ((m ((c : Thread nD τ).loc main_arg3)) : Vec Ideal S16x32 .f32) (ix2 l j) := by
  obtain ⟨-, -, -, -, -, -, e0, e1, -⟩ := idx_facts t
  unfold iblk
  rw [View.read_apply]
  have he : (((cfg0.win 3).blk t).view.emb (ix2 j l) : S32x16.Idx) = ix2 j l := funext fun ax => Fin.ext (by
    match ax with
    | ⟨0, _⟩ => show win0_3.index t (0 : Fin 2) * 32 + 1 * j.val = j.val; rw [e0]; omega
    | ⟨1, _⟩ => show win0_3.index t (1 : Fin 2) * 16 + 1 * l.val = l.val; rw [e1]; omega)
  exact (congrArg _ he).trans (W2_apply m c j l)

/-- The second bias block, entry (u, l): b2 l. -/
theorem b2blk_apply (c : Dev nD) (t : Fin cfg0.N) (u : Fin 1) (l : Fin 16) :
    (iblk m c 4 t : Vec Ideal S1x16 .f32) (ix2 u l) = ((m ((c : Thread nD τ).loc main_arg4)) : Vec Ideal S16 .f32) (ix1 l) := by
  obtain ⟨-, -, -, -, -, -, -, -, e0, e1, -⟩ := idx_facts t
  unfold iblk
  rw [View.read_apply]
  have he : (((cfg0.win 4).blk t).view.emb (ix2 u l) : S1x16.Idx) = ix2 u l := funext fun ax => Fin.ext (by
    match ax with
    | ⟨0, _⟩ => show win0_4.index t (0 : Fin 2) * 1 + 1 * u.val = u.val; rw [e0]; omega
    | ⟨1, _⟩ => show win0_4.index t (1 : Fin 2) * 16 + 1 * l.val = l.val; rw [e1]; omega)
  exact (congrArg _ he).trans (B2_apply m c u l)

/-- The third weight block, entry (l, u): w3 (u, l). -/
theorem w3blk_apply (c : Dev nD) (t : Fin cfg0.N) (l : Fin 16) (u : Fin 1) :
    (iblk m c 5 t : Vec Ideal S16x1 .f32) (ix2 l u) = ((m ((c : Thread nD τ).loc main_arg5)) : Vec Ideal S1x16 .f32) (ix2 u l) := by
  obtain ⟨-, -, -, -, -, -, -, -, -, -, e0, e1, -⟩ := idx_facts t
  unfold iblk
  rw [View.read_apply]
  have he : (((cfg0.win 5).blk t).view.emb (ix2 l u) : S16x1.Idx) = ix2 l u := funext fun ax => Fin.ext (by
    match ax with
    | ⟨0, _⟩ => show win0_5.index t (0 : Fin 2) * 16 + 1 * l.val = l.val; rw [e0]; omega
    | ⟨1, _⟩ => show win0_5.index t (1 : Fin 2) * 1 + 1 * u.val = u.val; rw [e1]; omega)
  exact (congrArg _ he).trans (W3_apply m c l u)

/-- The third bias block, entry (u, u'): b3 u'. -/
theorem b3blk_apply (c : Dev nD) (t : Fin cfg0.N) (u : Fin 1) (u' : Fin 1) :
    (iblk m c 6 t : Vec Ideal S1x1 .f32) (ix2 u u') = ((m ((c : Thread nD τ).loc main_arg6)) : Vec Ideal S1 .f32) (ix1 u') := by
  obtain ⟨-, -, -, -, -, -, -, -, -, -, -, -, e0, e1, -⟩ := idx_facts t
  unfold iblk
  rw [View.read_apply]
  have he : (((cfg0.win 6).blk t).view.emb (ix2 u u') : S1x1.Idx) = ix2 u u' := funext fun ax => Fin.ext (by
    match ax with
    | ⟨0, _⟩ => show win0_6.index t (0 : Fin 2) * 1 + 1 * u.val = u.val; rw [e0]; omega
    | ⟨1, _⟩ => show win0_6.index t (1 : Fin 2) * 1 + 1 * u'.val = u'.val; rw [e1]; omega)
  exact (congrArg _ he).trans (B3_apply m c u u')

/-! ## What a point writes back, and the whole result -/

/-- What point t writes back is block t of the row-wise function `G` of the argument arrays: row p of the block is
    the row function of row p of the x block, which is row 8192·t + p of x, through the whole weight and bias arrays. -/
theorem flushed_eq (c : Dev nD) (t : Fin cfg0.N) :
    (dats m 0 c).flushed 7 t = ((cfg0.win 7).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed7]
  unfold out0_7
  rw [View.canon_unit_zero hz]
  simp only [View.ld_unit_zero (S := S8192x512) hz, View.ld_unit_zero (S := S512x32) hz, View.ld_unit_zero (S := S1x32) hz,
    View.ld_unit_zero (S := S32x16) hz, View.ld_unit_zero (S := S1x16) hz, View.ld_unit_zero (S := S16x1) hz,
    View.ld_unit_zero (S := S1x1) hz]
  funext y
  obtain ⟨p, q, rfl⟩ : ∃ (p : Fin 8192) (q : Fin 1), y = ix2 p q := ⟨y 0, y 1, eq_ix2 y⟩
  obtain rfl : q = 0 := Subsingleton.elim q 0
  show k0_pay1 (F := Ideal) (iblk m c 0 t) (iblk m c 1 t) (iblk m c 2 t) (iblk m c 3 t) (iblk m c 4 t) (iblk m c 5 t) (iblk m c 6 t) (ix2 p (0 : Fin 1))
    = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (((cfg0.win 7).blk t).view.emb (ix2 p (0 : Fin 1)))
  refine (pay_apply _ _ _ _ _ _ _ p 0).trans ?_
  unfold G
  exact mlpRow_congr (fun i => xblk_apply m c t (ix2 p i) _ (oblk_row t p 0) rfl)
    (fun i j => w1blk_apply m c t i j) (fun j => b1blk_apply m c t 0 j) (fun j l => w2blk_apply m c t j l)
    (fun l => b2blk_apply m c t 0 l) (fun l => w3blk_apply m c t l 0) (b3blk_apply m c t 0 0)

/-- An index of the result is in point t's block iff each coordinate is in the block's range on its axis. -/
theorem mem_blk (t : Fin cfg0.N) (i : S32768x1.Idx) :
    i ∈ ((cfg0.win 7).blk t).view.set ↔ ∀ a : Fin 2, win0_7.index t a * S8192x1.size a ≤ (i a).val ∧ (i a).val < win0_7.index t a * S8192x1.size a + S8192x1.size a := by
  show i ∈ ((View.whole main_v7).slice (win0_7.rect t)).set ↔ _
  rw [View.set_slice_whole, Rect.mem_set_unit]
  exact Iff.rfl

/-- Every row of the result is in some point's block: row r in that of point r / 8192. -/
theorem cover (i : S32768x1.Idx) : ∃ t : Fin cfg0.N, (cfg0.win 7).flush t = true ∧ i ∈ ((cfg0.win 7).blk t).view.set := by
  have hi0 : (i 0).val < 32768 := (i 0).isLt
  have hi1 : (i 1).val < 1 := (i 1).isLt
  have hN : grid0.N = 4 := N_0
  have ht : (i 0).val / 8192 < cfg0.N := by show _ < grid0.N; rw [hN]; omega
  refine ⟨⟨(i 0).val / 8192, ht⟩, flush0_7 _, ?_⟩
  rw [mem_blk]
  obtain ⟨-, -, -, -, -, -, -, -, -, -, -, -, -, -, e0, e1⟩ := idx_facts ⟨(i 0).val / 8192, ht⟩
  intro a
  match a with
  | ⟨0, _⟩ =>
    show win0_7.index ⟨(i 0).val / 8192, ht⟩ (0 : Fin 2) * 8192 ≤ (i 0).val ∧ (i 0).val < win0_7.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win0_7.index ⟨(i 0).val / 8192, ht⟩ (1 : Fin 2) * 1 ≤ (i 1).val ∧ (i 1).val < win0_7.index ⟨(i 0).val / 8192, ht⟩ (1 : Fin 2) * 1 + 1
    rw [e1]; omega

/-- So the result array ends holding `G` of the argument arrays. -/
theorem final (c : Dev nD) : (dats m 0 c).arrAt 7 cfg0.N = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (dats m 0 c).arrAt_eq_of_cover 7 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover

/-- The run, read: every weakly fair execution terminates with the result array at `G` of the argument arrays, the
    arguments unchanged. -/
theorem run : θ_run defs (onTc (τ := τ) (main (F := Ideal))) ⟨m, fun _ => 0, ρ⟩ fun r => ∀ c : Dev nD,
      r.2.mem ((c : Thread nD τ).loc main_v7) = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Hand

end
-- ==== Proof.ReferencePayload.lean ====
/-
  The reference body's stored value at one entry.

  The body computes, from its seven loaded blocks (2048 rows of x, the three weight blocks laid out (in, out), the
  three one-row bias blocks), logistic (relu (relu (x·W1 + b1)·W2 + b2)·W3 + b3). Entry (p, q) of that value is the
  row function `mlpRow` of row p of the x block: each layer read at an entry is a sum over the contracted axis plus
  the bias row's entry, and the rectifier the maximum with 0.
-/
import proofs.«136182_g2000206876986119_pallasbulk_25_21_alg».proof.Proof.Gen.ReferenceIdeal.Skeleton
import proofs.«136182_g2000206876986119_pallasbulk_25_21_alg».proof.Proof.LibDenseLayer
import proofs.«136182_g2000206876986119_pallasbulk_25_21_alg».proof.Proof.MlpSpec

noncomputable section

open scoped BigOperators

namespace Cert.ReferenceIdeal.Hand

open Cert.ReferenceIdeal Cert.ReferenceIdeal.Gen Idealize.ShloMosaic Idealize.ShloMosaic.ValueIdx
open Cert.Mlp Cert.Lib.DenseLayer

/-- Entry (p, q) of the stored value is the row function of row p of the x block and of the weight and bias blocks. -/
theorem pay_apply (x0 : Vec Ideal S2048x512 .f32) (x1 : Vec Ideal S512x32 .f32) (x2 : Vec Ideal S1x32 .f32)
    (x3 : Vec Ideal S32x16 .f32) (x4 : Vec Ideal S1x16 .f32) (x5 : Vec Ideal S16x1 .f32) (x6 : Vec Ideal S1x1 .f32)
    (p : Fin 2048) (q : Fin 1) :
    k0_pay1 (F := Ideal) x0 x1 x2 x3 x4 x5 x6 (ix2 p q)
      = mlpRow (fun i => x0 (ix2 p i)) (fun i j => x1 (ix2 i j)) (fun j => x2 (ix2 (0 : Fin 1) j))
          (fun j l => x3 (ix2 j l)) (fun l => x4 (ix2 (0 : Fin 1) l)) (fun l => x5 (ix2 l q)) (x6 (ix2 (0 : Fin 1) q)) := by
  unfold k0_pay1 mlpRow
  simp only [logistic, Ideal.logistic_def,
    dense_apply dot_S2048x16_S16x1_S2048x1_1_0_0_1_n_n rfl,
    dense_apply dot_S2048x32_S32x16_S2048x16_1_0_0_1_n_n rfl,
    dense_apply dot_S2048x512_S512x32_S2048x32_1_0_0_1_n_n rfl,
    relu_apply]

end Cert.ReferenceIdeal.Hand

end
-- ==== Proof.ReferenceValue.lean ====
/-
  The reference's result array as one function of its arguments.

  The call cuts x into 16 blocks of 2048 rows, one per grid point, and hands every point the whole weight and
  bias arrays — the weights transposed to (in, out) and the biases reshaped to one-row matrices by the operations that
  precede the call. Point t writes back the body's value of block t, and row p of that value is the
  row function of row p of the block, that is of row 2048·t + p of x. So what point t writes is block t of the
  row-wise function `G`; the 16 row blocks tile the result (row r lies in block r / 2048), hence after the
  run the result array is `G` of the argument arrays, which the run leaves unchanged.
-/
import proofs.«136182_g2000206876986119_pallasbulk_25_21_alg».proof.Proof.Gen.ReferenceIdeal.Value
import proofs.«136182_g2000206876986119_pallasbulk_25_21_alg».proof.Proof.ReferencePayload
import Idealize.ShloMosaic.Lib.ValueLayout
import Idealize.ShloMosaic.Lib.StableHlo.Run
import Idealize.ShloMosaic.Lib.Pipeline.Value

noncomputable section

open scoped BigOperators

namespace Cert.ReferenceIdeal.Hand

open Cert.ReferenceIdeal Cert.ReferenceIdeal.Gen Idealize.ShloMosaic Idealize.ShloMosaic.TcCoe Idealize.ShloMosaic.ValueIdx Idealize.SL.Sem
open Idealize.ShloMosaic.Pipeline (Dat)
open Cert.Mlp

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds: the weights transposed, the biases as one-row matrices -/

/-- The first layer's weights as the region finds them, (in, out): entry (i, j) is w1 (j, i). -/
theorem W1_apply (c : Dev nD) (i : Fin 512) (j : Fin 32) :
    (V m c main_v0 : Vec Ideal S512x32 .f32) (ix2 i j) = ((m ((c : Thread nD τ).loc main_arg1)) : Vec Ideal S32x512 .f32) (ix2 j i) := by
  have e : @Eq (Vec Ideal S512x32 .f32) (V m c main_v0)
      (transpose (α := Ideal .f32) S512x32 [1, 0] ((m ((c : Thread nD τ).loc main_arg1)) : Vec Ideal S32x512 .f32) transposes_S32x512_S512x32_1_0) := by
    dsimp only [Gen.V, Gen.hostOps0]; after_results <;> rfl
  rw [e, transpose_ix2_apply]

/-- The second layer's weights, (in, out): entry (j, l) is w2 (l, j). -/
theorem W2_apply (c : Dev nD) (j : Fin 32) (l : Fin 16) :
    (V m c main_v1 : Vec Ideal S32x16 .f32) (ix2 j l) = ((m ((c : Thread nD τ).loc main_arg3)) : Vec Ideal S16x32 .f32) (ix2 l j) := by
  have e : @Eq (Vec Ideal S32x16 .f32) (V m c main_v1)
      (transpose (α := Ideal .f32) S32x16 [1, 0] ((m ((c : Thread nD τ).loc main_arg3)) : Vec Ideal S16x32 .f32) transposes_S16x32_S32x16_1_0) := by
    dsimp only [Gen.V, Gen.hostOps0]; after_results <;> rfl
  rw [e, transpose_ix2_apply]

/-- The third layer's weights, (in, out): entry (l, u) is w3 (u, l). -/
theorem W3_apply (c : Dev nD) (l : Fin 16) (u : Fin 1) :
    (V m c main_v2 : Vec Ideal S16x1 .f32) (ix2 l u) = ((m ((c : Thread nD τ).loc main_arg5)) : Vec Ideal S1x16 .f32) (ix2 u l) := by
  have e : @Eq (Vec Ideal S16x1 .f32) (V m c main_v2)
      (transpose (α := Ideal .f32) S16x1 [1, 0] ((m ((c : Thread nD τ).loc main_arg5)) : Vec Ideal S1x16 .f32) transposes_S1x16_S16x1_1_0) := by
    dsimp only [Gen.V, Gen.hostOps0]; after_results <;> rfl
  rw [e, transpose_ix2_apply]

/-- The first bias as a one-row matrix: entry (u, j) is b1 j. -/
theorem B1_apply (c : Dev nD) (u : Fin 1) (j : Fin 32) :
    (V m c main_v3 : Vec Ideal S1x32 .f32) (ix2 u j) = ((m ((c : Thread nD τ).loc main_arg2)) : Vec Ideal S32 .f32) (ix1 j) := by
  have e : @Eq (Vec Ideal S1x32 .f32) (V m c main_v3)
      (shapeCast S1x32 ((m ((c : Thread nD τ).loc main_arg2)) : Vec Ideal S32 .f32) shapeCasts_S32_S1x32) := by
    dsimp only [Gen.V, Gen.hostOps0]; after_results <;> rfl
  rw [e, shapeCast_a_1a_apply]

/-- The second bias as a one-row matrix: entry (u, l) is b2 l. -/
theorem B2_apply (c : Dev nD) (u : Fin 1) (l : Fin 16) :
    (V m c main_v4 : Vec Ideal S1x16 .f32) (ix2 u l) = ((m ((c : Thread nD τ).loc main_arg4)) : Vec Ideal S16 .f32) (ix1 l) := by
  have e : @Eq (Vec Ideal S1x16 .f32) (V m c main_v4)
      (shapeCast S1x16 ((m ((c : Thread nD τ).loc main_arg4)) : Vec Ideal S16 .f32) shapeCasts_S16_S1x16) := by
    dsimp only [Gen.V, Gen.hostOps0]; after_results <;> rfl
  rw [e, shapeCast_a_1a_apply]

/-- The third bias as a one-entry matrix: entry (u, u') is b3 u'. -/
theorem B3_apply (c : Dev nD) (u u' : Fin 1) :
    (V m c main_v5 : Vec Ideal S1x1 .f32) (ix2 u u') = ((m ((c : Thread nD τ).loc main_arg6)) : Vec Ideal S1 .f32) (ix1 u') := by
  have e : @Eq (Vec Ideal S1x1 .f32) (V m c main_v5)
      (shapeCast S1x1 ((m ((c : Thread nD τ).loc main_arg6)) : Vec Ideal S1 .f32) shapeCasts_S1_S1x1) := by
    dsimp only [Gen.V, Gen.hostOps0]; after_results <;> rfl
  rw [e, shapeCast_a_1a_apply]

/-! ## The blocks at a grid point -/

/-- The index maps over the grid: point t takes row block t of x and writes row block t of the result; every other
    window is its whole array at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of the x block at point t is row 2048·t + p of x. -/
theorem xblk_apply (c : Dev nD) (t : Fin cfg0.N) (y : S2048x512.Idx) (k : S32768x512.Idx)
    (hk0 : (k 0).val = 2048 * t.val + (y 0).val) (hk1 : (k 1).val = (y 1).val) :
    (iblk m c 0 t : Vec Ideal S2048x512 .f32) y = ((m ((c : Thread nD τ).loc main_arg0)) : Vec Ideal S32768x512 .f32) k := by
  obtain ⟨e0, e1, -⟩ := idx_facts t
  unfold iblk
  rw [View.read_apply]
  show V m c main_arg0 (((cfg0.win 0).blk t).view.emb y) = _
  rw [V_main_arg0]
  refine congrArg _ (funext fun a => Fin.ext ?_)
  match a with
  | ⟨0, _⟩ => show win0_0.index t (0 : Fin 2) * 2048 + 1 * (y 0).val = (k 0).val; rw [e0, hk0]; omega
  | ⟨1, _⟩ => show win0_0.index t (1 : Fin 2) * 512 + 1 * (y 1).val = (k 1).val; rw [e1, hk1]; omega

/-- Row p of the result block at point t is row 2048·t + p of the result. -/
theorem oblk_row (t : Fin cfg0.N) (p : Fin 2048) (q : Fin 1) :
    ((((cfg0.win 7).blk t).view.emb (ix2 p q) : S32768x1.Idx) 0).val = 2048 * t.val + p.val := by
  obtain ⟨-, -, -, -, -, -, -, -, -, -, -, -, -, -, e0, -⟩ := idx_facts t
  show win0_7.index t (0 : Fin 2) * 2048 + 1 * p.val = _
  rw [e0]; omega

/-! ## The weight and bias blocks: each is its whole array, at every point -/

/-- The first weight block, entry (i, j): w1 (j, i). -/
theorem w1blk_apply (c : Dev nD) (t : Fin cfg0.N) (i : Fin 512) (j : Fin 32) :
    (iblk m c 1 t : Vec Ideal S512x32 .f32) (ix2 i j) = ((m ((c : Thread nD τ).loc main_arg1)) : Vec Ideal S32x512 .f32) (ix2 j i) := by
  obtain ⟨-, -, e0, e1, -⟩ := idx_facts t
  unfold iblk
  rw [View.read_apply]
  have he : (((cfg0.win 1).blk t).view.emb (ix2 i j) : S512x32.Idx) = ix2 i j := funext fun ax => Fin.ext (by
    match ax with
    | ⟨0, _⟩ => show win0_1.index t (0 : Fin 2) * 512 + 1 * i.val = i.val; rw [e0]; omega
    | ⟨1, _⟩ => show win0_1.index t (1 : Fin 2) * 32 + 1 * j.val = j.val; rw [e1]; omega)
  exact (congrArg _ he).trans (W1_apply m c i j)

/-- The first bias block, entry (u, j): b1 j. -/
theorem b1blk_apply (c : Dev nD) (t : Fin cfg0.N) (u : Fin 1) (j : Fin 32) :
    (iblk m c 2 t : Vec Ideal S1x32 .f32) (ix2 u j) = ((m ((c : Thread nD τ).loc main_arg2)) : Vec Ideal S32 .f32) (ix1 j) := by
  obtain ⟨-, -, -, -, e0, e1, -⟩ := idx_facts t
  unfold iblk
  rw [View.read_apply]
  have he : (((cfg0.win 2).blk t).view.emb (ix2 u j) : S1x32.Idx) = ix2 u j := funext fun ax => Fin.ext (by
    match ax with
    | ⟨0, _⟩ => show win0_2.index t (0 : Fin 2) * 1 + 1 * u.val = u.val; rw [e0]; omega
    | ⟨1, _⟩ => show win0_2.index t (1 : Fin 2) * 32 + 1 * j.val = j.val; rw [e1]; omega)
  exact (congrArg _ he).trans (B1_apply m c u j)

/-- The second weight block, entry (j, l): w2 (l, j). -/
theorem w2blk_apply (c : Dev nD) (t : Fin cfg0.N) (j : Fin 32) (l : Fin 16) :
    (iblk m c 3 t : Vec Ideal S32x16 .f32) (ix2 j l) = ((m ((c : Thread nD τ).loc main_arg3)) : Vec Ideal S16x32 .f32) (ix2 l j) := by
  obtain ⟨-, -, -, -, -, -, e0, e1, -⟩ := idx_facts t
  unfold iblk
  rw [View.read_apply]
  have he : (((cfg0.win 3).blk t).view.emb (ix2 j l) : S32x16.Idx) = ix2 j l := funext fun ax => Fin.ext (by
    match ax with
    | ⟨0, _⟩ => show win0_3.index t (0 : Fin 2) * 32 + 1 * j.val = j.val; rw [e0]; omega
    | ⟨1, _⟩ => show win0_3.index t (1 : Fin 2) * 16 + 1 * l.val = l.val; rw [e1]; omega)
  exact (congrArg _ he).trans (W2_apply m c j l)

/-- The second bias block, entry (u, l): b2 l. -/
theorem b2blk_apply (c : Dev nD) (t : Fin cfg0.N) (u : Fin 1) (l : Fin 16) :
    (iblk m c 4 t : Vec Ideal S1x16 .f32) (ix2 u l) = ((m ((c : Thread nD τ).loc main_arg4)) : Vec Ideal S16 .f32) (ix1 l) := by
  obtain ⟨-, -, -, -, -, -, -, -, e0, e1, -⟩ := idx_facts t
  unfold iblk
  rw [View.read_apply]
  have he : (((cfg0.win 4).blk t).view.emb (ix2 u l) : S1x16.Idx) = ix2 u l := funext fun ax => Fin.ext (by
    match ax with
    | ⟨0, _⟩ => show win0_4.index t (0 : Fin 2) * 1 + 1 * u.val = u.val; rw [e0]; omega
    | ⟨1, _⟩ => show win0_4.index t (1 : Fin 2) * 16 + 1 * l.val = l.val; rw [e1]; omega)
  exact (congrArg _ he).trans (B2_apply m c u l)

/-- The third weight block, entry (l, u): w3 (u, l). -/
theorem w3blk_apply (c : Dev nD) (t : Fin cfg0.N) (l : Fin 16) (u : Fin 1) :
    (iblk m c 5 t : Vec Ideal S16x1 .f32) (ix2 l u) = ((m ((c : Thread nD τ).loc main_arg5)) : Vec Ideal S1x16 .f32) (ix2 u l) := by
  obtain ⟨-, -, -, -, -, -, -, -, -, -, e0, e1, -⟩ := idx_facts t
  unfold iblk
  rw [View.read_apply]
  have he : (((cfg0.win 5).blk t).view.emb (ix2 l u) : S16x1.Idx) = ix2 l u := funext fun ax => Fin.ext (by
    match ax with
    | ⟨0, _⟩ => show win0_5.index t (0 : Fin 2) * 16 + 1 * l.val = l.val; rw [e0]; omega
    | ⟨1, _⟩ => show win0_5.index t (1 : Fin 2) * 1 + 1 * u.val = u.val; rw [e1]; omega)
  exact (congrArg _ he).trans (W3_apply m c l u)

/-- The third bias block, entry (u, u'): b3 u'. -/
theorem b3blk_apply (c : Dev nD) (t : Fin cfg0.N) (u : Fin 1) (u' : Fin 1) :
    (iblk m c 6 t : Vec Ideal S1x1 .f32) (ix2 u u') = ((m ((c : Thread nD τ).loc main_arg6)) : Vec Ideal S1 .f32) (ix1 u') := by
  obtain ⟨-, -, -, -, -, -, -, -, -, -, -, -, e0, e1, -⟩ := idx_facts t
  unfold iblk
  rw [View.read_apply]
  have he : (((cfg0.win 6).blk t).view.emb (ix2 u u') : S1x1.Idx) = ix2 u u' := funext fun ax => Fin.ext (by
    match ax with
    | ⟨0, _⟩ => show win0_6.index t (0 : Fin 2) * 1 + 1 * u.val = u.val; rw [e0]; omega
    | ⟨1, _⟩ => show win0_6.index t (1 : Fin 2) * 1 + 1 * u'.val = u'.val; rw [e1]; omega)
  exact (congrArg _ he).trans (B3_apply m c u u')

/-! ## What a point writes back, and the whole result -/

/-- What point t writes back is block t of the row-wise function `G` of the argument arrays: row p of the block is
    the row function of row p of the x block, which is row 2048·t + p of x, through the whole weight and bias arrays. -/
theorem flushed_eq (c : Dev nD) (t : Fin cfg0.N) :
    (dats m 0 c).flushed 7 t = ((cfg0.win 7).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.ReferenceIdeal.Value.flushed7]
  unfold out0_7
  rw [View.canon_unit_zero hz]
  simp only [View.ld_unit_zero (S := S2048x512) hz, View.ld_unit_zero (S := S512x32) hz, View.ld_unit_zero (S := S1x32) hz,
    View.ld_unit_zero (S := S32x16) hz, View.ld_unit_zero (S := S1x16) hz, View.ld_unit_zero (S := S16x1) hz,
    View.ld_unit_zero (S := S1x1) hz]
  funext y
  obtain ⟨p, q, rfl⟩ : ∃ (p : Fin 2048) (q : Fin 1), y = ix2 p q := ⟨y 0, y 1, eq_ix2 y⟩
  obtain rfl : q = 0 := Subsingleton.elim q 0
  show k0_pay1 (F := Ideal) (iblk m c 0 t) (iblk m c 1 t) (iblk m c 2 t) (iblk m c 3 t) (iblk m c 4 t) (iblk m c 5 t) (iblk m c 6 t) (ix2 p (0 : Fin 1))
    = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (((cfg0.win 7).blk t).view.emb (ix2 p (0 : Fin 1)))
  refine (pay_apply _ _ _ _ _ _ _ p 0).trans ?_
  unfold G
  exact mlpRow_congr (fun i => xblk_apply m c t (ix2 p i) _ (oblk_row t p 0) rfl)
    (fun i j => w1blk_apply m c t i j) (fun j => b1blk_apply m c t 0 j) (fun j l => w2blk_apply m c t j l)
    (fun l => b2blk_apply m c t 0 l) (fun l => w3blk_apply m c t l 0) (b3blk_apply m c t 0 0)

/-- An index of the result is in point t's block iff each coordinate is in the block's range on its axis. -/
theorem mem_blk (t : Fin cfg0.N) (i : S32768x1.Idx) :
    i ∈ ((cfg0.win 7).blk t).view.set ↔ ∀ a : Fin 2, win0_7.index t a * S2048x1.size a ≤ (i a).val ∧ (i a).val < win0_7.index t a * S2048x1.size a + S2048x1.size a := by
  show i ∈ ((View.whole main_v6).slice (win0_7.rect t)).set ↔ _
  rw [View.set_slice_whole, Rect.mem_set_unit]
  exact Iff.rfl

/-- Every row of the result is in some point's block: row r in that of point r / 2048. -/
theorem cover (i : S32768x1.Idx) : ∃ t : Fin cfg0.N, (cfg0.win 7).flush t = true ∧ i ∈ ((cfg0.win 7).blk t).view.set := by
  have hi0 : (i 0).val < 32768 := (i 0).isLt
  have hi1 : (i 1).val < 1 := (i 1).isLt
  have hN : grid0.N = 16 := N_0
  have ht : (i 0).val / 2048 < cfg0.N := by show _ < grid0.N; rw [hN]; omega
  refine ⟨⟨(i 0).val / 2048, ht⟩, flush0_7 _, ?_⟩
  rw [mem_blk]
  obtain ⟨-, -, -, -, -, -, -, -, -, -, -, -, -, -, e0, e1⟩ := idx_facts ⟨(i 0).val / 2048, ht⟩
  intro a
  match a with
  | ⟨0, _⟩ =>
    show win0_7.index ⟨(i 0).val / 2048, ht⟩ (0 : Fin 2) * 2048 ≤ (i 0).val ∧ (i 0).val < win0_7.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_7.index ⟨(i 0).val / 2048, ht⟩ (1 : Fin 2) * 1 ≤ (i 1).val ∧ (i 1).val < win0_7.index ⟨(i 0).val / 2048, ht⟩ (1 : Fin 2) * 1 + 1
    rw [e1]; omega

/-- So the result array ends holding `G` of the argument arrays. -/
theorem final (c : Dev nD) : (dats m 0 c).arrAt 7 cfg0.N = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (dats m 0 c).arrAt_eq_of_cover 7 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover

/-- The run, read: every weakly fair execution terminates with the result array at `G` of the argument arrays, the
    arguments unchanged. -/
theorem run : θ_run defs (onTc (τ := τ) (main (F := Ideal))) ⟨m, fun _ => 0, ρ⟩ fun r => ∀ c : Dev nD,
      r.2.mem ((c : Thread nD τ).loc main_v6) = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.ReferenceIdeal.Value.run_blocks m ρ)

end Cert.ReferenceIdeal.Hand

end
-- ==== Proof.lean ====
/-
  The kernel and its reference compute the same three-layer perceptron, row by row.

  Both programs are one call of a body over a grid of row blocks of x (the kernel 4 blocks of 8192 rows, the
  reference 16 blocks of 2048 rows), preceded by the same relayouts of the weights and biases. Both bodies compute
  logistic (relu (relu (x·W1ᵀ + b1)·W2ᵀ + b2)·W3ᵀ + b3) of their block; the kernel narrows x and W1 to a shorter float
  format before the first product, which on the extended reals is the identity. Each result entry depends on one row
  of x and on the weights only, so the result array of either program is the row-wise function `Cert.Mlp.G` of the
  argument arrays, whatever the block size: that is the equivalence. No algebraic law beyond reading each product as a
  sum is needed, and the finiteness of the inputs is never used.

  The three frame claims (each program terminates without a fault and leaves its arguments unchanged) are the
  generated frames. The idealization rewrote no operation, so there is nothing to preserve.
-/
import proofs.«136182_g2000206876986119_pallasbulk_25_21_alg».proof.Defs
import proofs.«136182_g2000206876986119_pallasbulk_25_21_alg».proof.Proof.Gen.Kernel
import proofs.«136182_g2000206876986119_pallasbulk_25_21_alg».proof.Proof.Gen.Kernel.Frame
import proofs.«136182_g2000206876986119_pallasbulk_25_21_alg».proof.Proof.Gen.KernelIdeal
import proofs.«136182_g2000206876986119_pallasbulk_25_21_alg».proof.Proof.Gen.KernelIdeal.Frame
import proofs.«136182_g2000206876986119_pallasbulk_25_21_alg».proof.Proof.Gen.ReferenceIdeal
import proofs.«136182_g2000206876986119_pallasbulk_25_21_alg».proof.Proof.Gen.ReferenceIdeal.Frame
import proofs.«136182_g2000206876986119_pallasbulk_25_21_alg».proof.Proof.Gen.Pre_finite_inputs
import proofs.«136182_g2000206876986119_pallasbulk_25_21_alg».proof.Proof.Gen.KernelIdeal.Value
import proofs.«136182_g2000206876986119_pallasbulk_25_21_alg».proof.Proof.Gen.ReferenceIdeal.Value
import proofs.«136182_g2000206876986119_pallasbulk_25_21_alg».proof.Proof.KernelValue
import proofs.«136182_g2000206876986119_pallasbulk_25_21_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference read on the extended reals. -/
theorem frame_referenceIdeal : Cert.frame_ReferenceIdeal := fun m ρ _ => Cert.ReferenceIdeal.Gen.frame m ρ

/-- The idealization rewrote nothing. -/
theorem preserves : Cert.preserves_Kernel_KernelIdeal := trivial

/-- From memories agreeing on the arguments, both programs end with the result array at the row-wise perceptron
    `Cert.Mlp.G` of the arguments: the kernel's run read over its 4 row blocks, the reference's over its 16. -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
